-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x25 : Shape := ⟨2, ![100000, 25]⟩
abbrev S25x50 : Shape := ⟨2, ![25, 50]⟩
abbrev S50 : Shape := ⟨1, ![50]⟩
abbrev S2x1600000 : Shape := ⟨2, ![2, 1600000]⟩
abbrev S_ : Shape := ⟨0, ![]⟩

class Facts : Prop where
  bcast_S_S100000x25 : S_.BroadcastsInDim S100000x25 (![] : Fin 0 → Fin S100000x25.rank)
  reducesTo_S100000x25_S_d0_1 : S100000x25.ReducesTo [0, 1] S_
  h_S_ : 0 < S_.numel
  bcast_S_S25x50 : S_.BroadcastsInDim S25x50 (![] : Fin 0 → Fin S25x50.rank)
  reducesTo_S25x50_S_d0_1 : S25x50.ReducesTo [0, 1] S_
  bcast_S_S50 : S_.BroadcastsInDim S50 (![] : Fin 0 → Fin S50.rank)
  reducesTo_S50_S_d0 : S50.ReducesTo [0] S_

variable [Facts]

def fn {F : FTy → Type} [FloatOps F] (main_arg0 : FVec F S100000x25 .f32) (main_arg1 : FVec F S25x50 .f32) (main_arg2 : FVec F S50 .f32) (main_arg3 : IVec S2x1600000 32) : IVec S_ 1 :=
  let main_v0 : FVec F S100000x25 .f32 := Host.absf main_arg0
  let main_cst : FVec F S_ .f32 := constant S_ .f32 0x7F800000#32
  let main_v1 : FVec F S100000x25 .f32 := broadcastInDim S100000x25 ![] bcast_S_S100000x25 main_cst
  let main_v2 : IVec S100000x25 1 := cmpf .olt main_v0 main_v1
  let main_c : IVec S_ 1 := constantI S_ 1 1#1
  let main_v3 : IVec S_ 1 := (fun x v => Host.reduce IntOp.andi x v reducesTo_S100000x25_S_d0_1 h_S_) main_v2 main_c
  let main_v4 : FVec F S25x50 .f32 := Host.absf main_arg1
  let main_cst_0 : FVec F S_ .f32 := constant S_ .f32 0x7F800000#32
  let main_v5 : FVec F S25x50 .f32 := broadcastInDim S25x50 ![] bcast_S_S25x50 main_cst_0
  let main_v6 : IVec S25x50 1 := cmpf .olt main_v4 main_v5
  let main_c_1 : IVec S_ 1 := constantI S_ 1 1#1
  let main_v7 : IVec S_ 1 := (fun x v => Host.reduce IntOp.andi x v reducesTo_S25x50_S_d0_1 h_S_) main_v6 main_c_1
  let main_v8 : IVec S_ 1 := andi main_v3 main_v7
  let main_v9 : FVec F S50 .f32 := Host.absf main_arg2
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  main_v13
-- ==== Kernel.lean ====
abbrev S100000x25 : Shape := ⟨2, ![100000, 25]⟩
abbrev S25x50 : Shape := ⟨2, ![25, 50]⟩
abbrev S50 : Shape := ⟨1, ![50]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x25 : Shape := ⟨2, ![1600000, 25]⟩
abbrev S1x50 : Shape := ⟨2, ![1, 50]⟩
abbrev S100000x50 : Shape := ⟨2, ![100000, 50]⟩
abbrev S10000x25 : Shape := ⟨2, ![10000, 25]⟩
abbrev S10000x50 : Shape := ⟨2, ![10000, 50]⟩

abbrev nBuf : Space → Nat
  | .hbm => 23
  | .vmem => 6
  | .smem => 0
  | _ => 0

abbrev bufTy : (tb : Table) → Fin (tcTables nBuf tb) → BufTy
  | .hbm, ⟨0, _⟩ => ⟨S100000x25, .f32⟩
  | .hbm, ⟨1, _⟩ => ⟨S25x50, .f32⟩
  | .hbm, ⟨2, _⟩ => ⟨S50, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x25, .f32⟩
  | .hbm, ⟨17, _⟩ => ⟨S_, .f32⟩
  | .hbm, ⟨18, _⟩ => ⟨S100000x25, .f32⟩
  | .hbm, ⟨19, _⟩ => ⟨S1600000x1, .i32⟩
  | .hbm, ⟨20, _⟩ => ⟨S100000x25, .f32⟩
  | .hbm, ⟨21, _⟩ => ⟨S1x50, .f32⟩
  | .hbm, ⟨22, _⟩ => ⟨S100000x50, .f32⟩
  | .local _ .vmem, ⟨0, _⟩ => ⟨S10000x25, .f32⟩
  | .local _ .vmem, ⟨1, _⟩ => ⟨S10000x25, .f32⟩
  | .local _ .vmem, ⟨2, _⟩ => ⟨S25x50, .f32⟩
  | .local _ .vmem, ⟨3, _⟩ => ⟨S1x50, .f32⟩
  | .local _ .vmem, ⟨4, _⟩ => ⟨S10000x50, .f32⟩
  | .local _ .vmem, ⟨5, _⟩ => ⟨S10000x50, .f32⟩
  | _, _ => ⟨S100000x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x50 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x25 : S_.BroadcastsInDim S100000x25 (![] : Fin 0 → Fin S100000x25.rank)
  shapeCasts_S50_S1x50 : S50.ShapeCasts S1x50
  inb_S10000x25_S10000x25_0_0 : ∀ a, (![0, 0] : Fin 2 → Nat) a + S10000x25.size a ≤ S10000x25.size a
  h_S10000x25 : 0 < S10000x25.numel
  shapeCasts_S10000x25_S10000x25 : S10000x25.ShapeCasts S10000x25
  bitsLt_bf16_f32 : FTy.bits .bf16 < FTy.bits .f32
  inb_S25x50_S25x50_0_0 : ∀ a, (![0, 0] : Fin 2 → Nat) a + S25x50.size a ≤ S25x50.size a
  h_S25x50 : 0 < S25x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S10000x50 : S1x50.Broadcasts S10000x50
  inb_S10000x50_S10000x50_0_0 : ∀ a, (![0, 0] : Fin 2 → Nat) a + S10000x50.size a ≤ S10000x50.size a
  h_S10000x50 : 0 < S10000x50.numel
  gather_S100000x25_S1600000x1_S1600000x25_1_0_n_n_0_1_125_wf : GatherDims.WF S100000x25 S1600000x1 S1600000x25 [1] [0] [] [0] [] 1 ![1, 25]
  scatter_S100000x25_S1600000x1_S1600000x25_1_0_0_1_wf : ScatterDims.WF S100000x25 S1600000x1 S1600000x25 [1] [0] [0] 1
  dot_S10000x25_S25x50_S10000x50_1_0_0_1_n_n_wf : DotDims.WF S10000x25 S25x50 S10000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x25.size a ≤ S100000x25.size a
  hwx0_0 : ∀ i : grid0.Coords, EltTy.bits .f32 = 32 ∨ (Rect.block (s := S100000x25) S10000x25.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x50.size a ≤ S25x50.size a
  hwx0_1 : ∀ i : grid0.Coords, EltTy.bits .f32 = 32 ∨ (Rect.block (s := S25x50) S25x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x50.size a ≤ S100000x50.size a
  hwx0_3 : ∀ i : grid0.Coords, EltTy.bits .f32 = 32 ∨ (Rect.block (s := S100000x50) S10000x50.size (cc0_transform_3 i) (hinb0_3 i)).WholeWords (EltTy.packing .f32)

variable [Facts₀]

def gather_S100000x25_S1600000x1_S1600000x25_1_0_n_n_0_1_125 : GatherDims S100000x25 S1600000x1 S1600000x25 where
  offsetDims := [1]
  collapsedSliceDims := [0]
  operandBatchingDims := []
  startIndicesBatchingDims := []
  startIndexMap := [0]
  indexVectorDim := 1
  sliceSizes := ![1, 25]
  wf := gather_S100000x25_S1600000x1_S1600000x25_1_0_n_n_0_1_125_wf
def scatter_S100000x25_S1600000x1_S1600000x25_1_0_0_1 : ScatterDims S100000x25 S1600000x1 S1600000x25 where
  updateWindowDims := [1]
  insertedWindowDims := [0]
  scatterDimsToOperandDims := [0]
  indexVectorDim := 1
  wf := scatter_S100000x25_S1600000x1_S1600000x25_1_0_0_1_wf
def dot_S10000x25_S25x50_S10000x50_1_0_0_1_n_n : DotDims S10000x25 S25x50 S10000x50 where
  lhsContracting := [1]
  rhsContracting := [0]
  lhsNonContracting := [0]
  rhsNonContracting := [1]
  lhsBatch := []
  rhsBatch := []
  wf := dot_S10000x25_S25x50_S10000x50_1_0_0_1_n_n_wf

abbrev win0_0 : Pipeline.Window sig grid0 :=
  Pipeline.Window.ofSpec (Memref.whole main_v13) S10000x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S25x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x50.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x25 : Shape := ⟨2, ![100000, 25]⟩
abbrev S25x50 : Shape := ⟨2, ![25, 50]⟩
abbrev S50 : Shape := ⟨1, ![50]⟩
abbrev S2x1600000 : Shape := ⟨2, ![2, 1600000]⟩
abbrev S1x1600000 : Shape := ⟨2, ![1, 1600000]⟩
abbrev S1600000 : Shape := ⟨1, ![1600000]⟩
abbrev S100000x50 : Shape := ⟨2, ![100000, 50]⟩
abbrev S_ : Shape := ⟨0, ![]⟩
abbrev S1600000x1 : Shape := ⟨2, ![1600000, 1]⟩
abbrev S1600000x50 : Shape := ⟨2, ![1600000, 50]⟩
abbrev S1x50 : Shape := ⟨2, ![1, 50]⟩

abbrev nBuf : Space → Nat
  | .hbm => 28
  | .vmem => 0
  | .smem => 0
  | _ => 0

abbrev bufTy : (tb : Table) → Fin (tcTables nBuf tb) → BufTy
  | .hbm, ⟨0, _⟩ => ⟨S100000x25, .f32⟩
  | .hbm, ⟨1, _⟩ => ⟨S25x50, .f32⟩
  | .hbm, ⟨2, _⟩ => ⟨S50, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000x50, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x50, .f32⟩
  | .hbm, ⟨18, _⟩ => ⟨S_, .f32⟩
  | .hbm, ⟨19, _⟩ => ⟨S100000x50, .f32⟩
  | .hbm, ⟨20, _⟩ => ⟨S1600000x1, .i32⟩
  | .hbm, ⟨21, _⟩ => ⟨S100000x50, .f32⟩
  | .hbm, ⟨22, _⟩ => ⟨S1x50, .f32⟩
  | .hbm, ⟨23, _⟩ => ⟨S100000x50, .f32⟩
  | .hbm, ⟨24, _⟩ => ⟨S100000x50, .f32⟩
  | .hbm, ⟨25, _⟩ => ⟨S_, .f32⟩
  | .hbm, ⟨26, _⟩ => ⟨S100000x50, .f32⟩
  | .hbm, ⟨27, _⟩ => ⟨S100000x50, .f32⟩
  | _, _ => ⟨S100000x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x50 : S_.BroadcastsInDim S100000x50 (![] : Fin 0 → Fin S100000x50.rank)
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  dot_S100000x25_S25x50_S100000x50_1_0_0_1_n_n_wf : DotDims.WF S100000x25 S25x50 S100000x50 [1] [0] [0] [1] [] []
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1

variable [Facts₀]

def dot_S100000x25_S25x50_S100000x50_1_0_0_1_n_n : DotDims S100000x25 S25x50 S100000x50 where
  lhsContracting := [1]
  rhsContracting := [0]
  lhsNonContracting := [0]
  rhsNonContracting := [1]
  lhsBatch := []
  rhsBatch := []
  wf := dot_S100000x25_S25x50_S100000x50_1_0_0_1_n_n_wf
def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf

class Facts : Prop extends Facts₀ where

variable [Facts]
-- ==== Proof.Finite.lean ====
/-
  What the precondition gives: every entry of the node features x and of the weights W is a real number (neither
  infinity). The precondition is the conjunction, over the three float inputs, of "every entry has absolute value
  below +infinity"; an extended real with |a| < +infinity is a real.
-/
import proofs.«157711_j43722767073853_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx

/-- The word 0x7F800000 is +infinity. -/
theorem inf_bits : Ideal.ofBits .f32 0x7F800000#32 = (⊤ : EReal) := by
  simp [Ideal.ofBits, Ideal.ieee]

/-- An extended real whose absolute value max(a, -a) is strictly below +infinity is a real number. -/
theorem real_of_abs_lt (a : EReal)
    (h : FloatOps.cmpf (F := Ideal) .olt (FloatOps.hostAbsf (F := Ideal) (φ := .f32) a) (Ideal.ofBits .f32 0x7F800000#32) = 1#1) :
    ∃ r : ℝ, a = (r : EReal) := by
  rw [inf_bits] at h
  induction a using EReal.rec with
  | bot => exact absurd h (by simp [Ideal.cmpf_def, Ideal.absf_def, Ideal.cmp])
  | coe r => exact ⟨r, rfl⟩
  | top => exact absurd h (by simp [Ideal.cmpf_def, Ideal.absf_def, Ideal.cmp])

instance : Subsingleton Cert.Pre_finite_inputs.S_.Idx := ⟨fun a b => funext fun d => d.elim0⟩

/-- Under the precondition the features and the weights are arrays of reals. -/
theorem real_inputs [Cert.Pre_finite_inputs.Facts]
    (a0 : FVec Ideal Cert.Pre_finite_inputs.S100000x25 .f32) (a1 : FVec Ideal Cert.Pre_finite_inputs.S25x50 .f32)
    (a2 : FVec Ideal Cert.Pre_finite_inputs.S50 .f32) (a3 : IVec Cert.Pre_finite_inputs.S2x1600000 32)
    (h : Cert.Pre_finite_inputs.fn (F := Ideal) a0 a1 a2 a3 = fun _ => 1#1) :
    (∃ x : Cert.Pre_finite_inputs.S100000x25.Idx → ℝ, a0 = fun i => (x i : EReal))
      ∧ (∃ w : Cert.Pre_finite_inputs.S25x50.Idx → ℝ, a1 = fun i => (w i : EReal)) := by
  have h0 := congrFun h ix0
  dsimp only [Cert.Pre_finite_inputs.fn] at h0
  obtain ⟨h01, -⟩ := IntOp.andi_eq_one.1 h0
  obtain ⟨hx, hw⟩ := IntOp.andi_eq_one.1 h01
  have ex : ∀ i, ∃ r : ℝ, a0 i = (r : EReal) := fun i =>
    real_of_abs_lt (a0 i) (Host.reduce_andi_all _ _ _ _ _ hx i)
  have ew : ∀ i, ∃ r : ℝ, a1 i = (r : EReal) := fun i =>
    real_of_abs_lt (a1 i) (Host.reduce_andi_all _ _ _ _ _ hw i)
  choose x hx' using ex
  choose w hw' using ew
  exact ⟨⟨x, funext hx'⟩, ⟨w, funext hw'⟩⟩

end Cert.Finite

end
-- ==== Proof.KernelDense.lean ====
/-
  The kernel body's arithmetic at one entry. From a block of 10000 aggregated feature rows (a), the weights (w) and
  the bias as one row (r), the body stores, at (p, q) of its 10000 × 50 block,

      max( (0 + Σ_k a[p, k] · w[k, q]) + r[0, q], 0 ):

  the roundings to bf16 on the way into the matrix unit are the identity on extended reals, the matrix product into a
  zero accumulator is the accumulator's 0 plus the sum over the contracted coordinate, the bias row is broadcast down
  the rows, and the clip is the maximum with the constant 0.
-/
import proofs.«157711_j43722767073853_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Dense

open Cert.KernelIdeal Cert.KernelIdeal.Gen Idealize.ShloMosaic Idealize.ShloMosaic.ValueIdx

/-- The left operand's index at output (i) and contracted coordinate q: row of i, column q. -/
theorem lhs_row (i : S10000x50.Idx) (q : (dot_S10000x25_S25x50_S10000x50_1_0_0_1_n_n).contr.Idx) :
    ((dot_S10000x25_S25x50_S10000x50_1_0_0_1_n_n).lhsIdx i q 0).val = (i 0).val := by
  unfold DotDims.lhsIdx
  rw [dif_neg (show ¬(0 : Fin S10000x25.rank) ∈ (dot_S10000x25_S25x50_S10000x50_1_0_0_1_n_n).lhsBatch by decide),
    dif_pos (show (0 : Fin S10000x25.rank) ∈ (dot_S10000x25_S25x50_S10000x50_1_0_0_1_n_n).lhsNonContracting by decide)]
  rfl
theorem lhs_col (i : S10000x50.Idx) (q : (dot_S10000x25_S25x50_S10000x50_1_0_0_1_n_n).contr.Idx) :
    ((dot_S10000x25_S25x50_S10000x50_1_0_0_1_n_n).lhsIdx i q 1).val = (q ⟨0, by decide⟩).val :=
  (dot_S10000x25_S25x50_S10000x50_1_0_0_1_n_n).lhsIdx_val_of_single rfl i q
/-- The right operand's index: row q, column of i. -/
theorem rhs_row (i : S10000x50.Idx) (q : (dot_S10000x25_S25x50_S10000x50_1_0_0_1_n_n).contr.Idx) :
    ((dot_S10000x25_S25x50_S10000x50_1_0_0_1_n_n).rhsIdx i q 0).val = (q ⟨0, by decide⟩).val :=
  (dot_S10000x25_S25x50_S10000x50_1_0_0_1_n_n).rhsIdx_val_of_single rfl i q
theorem rhs_col (i : S10000x50.Idx) (q : (dot_S10000x25_S25x50_S10000x50_1_0_0_1_n_n).contr.Idx) :
    ((dot_S10000x25_S25x50_S10000x50_1_0_0_1_n_n).rhsIdx i q 1).val = (i 1).val := by
  unfold DotDims.rhsIdx
  rw [dif_neg (show ¬(1 : Fin S25x50.rank) ∈ (dot_S10000x25_S25x50_S10000x50_1_0_0_1_n_n).rhsBatch by decide),
    dif_pos (show (1 : Fin S25x50.rank) ∈ (dot_S10000x25_S25x50_S10000x50_1_0_0_1_n_n).rhsNonContracting by decide)]
  rfl

/-- The matrix product of a block of rows with the weights, into zero, at (p, q): 0 plus the sum over the 25
    contracted coordinates. -/
theorem product_apply (a : FVec Ideal S10000x25 .bf16) (w : FVec Ideal S25x50 .bf16) (p : Fin 10000) (q : Fin 50) :
    matmul dot_S10000x25_S25x50_S10000x50_1_0_0_1_n_n none a w (constant S10000x50 .f32 0x00000000#32) (ix2 p q)
      = (0 : EReal) + ∑ k : Fin 25, a (ix2 p k) * w (ix2 k q) := by
  simp only [matmul]
  rw [Ideal.matmul_apply, ← Equiv.sum_comp (contrEquiv1 dot_S10000x25_S25x50_S10000x50_1_0_0_1_n_n 25 rfl rfl).symm]
  refine congrArg₂ (· + ·) Ideal.ofBits_zero_f32 (Finset.sum_congr rfl fun k _ => ?_)
  have hk := contrEquiv1_symm_val dot_S10000x25_S25x50_S10000x50_1_0_0_1_n_n 25 rfl rfl k
  have el : dot_S10000x25_S25x50_S10000x50_1_0_0_1_n_n.lhsIdx (ix2 p q)
      ((contrEquiv1 dot_S10000x25_S25x50_S10000x50_1_0_0_1_n_n 25 rfl rfl).symm k) = ix2 p k :=
    funext fun ax => Fin.ext (by
      match ax with
      | ⟨0, _⟩ => exact lhs_row _ _
      | ⟨1, _⟩ => exact (lhs_col _ _).trans hk)
  have er : dot_S10000x25_S25x50_S10000x50_1_0_0_1_n_n.rhsIdx (ix2 p q)
      ((contrEquiv1 dot_S10000x25_S25x50_S10000x50_1_0_0_1_n_n 25 rfl rfl).symm k) = ix2 k q :=
    funext fun ax => Fin.ext (by
      match ax with
      | ⟨0, _⟩ => exact (rhs_row _ _).trans hk
      | ⟨1, _⟩ => exact rhs_col _ _)
  rw [el, er]

/-- THE BODY'S STORED VALUE AT (p, q). -/
theorem pay_apply (a : Vec Ideal S10000x25 .f32) (w : Vec Ideal S25x50 .f32) (r : Vec Ideal S1x50 .f32)
    (p : Fin 10000) (q : Fin 50) :
    k0_pay1 (F := Ideal) a w r (ix2 p q)
      = max (((0 : EReal) + ∑ k : Fin 25, a (ix2 p k) * w (ix2 k q)) + r (ix2 (0 : Fin 1) q)) 0 := by
  unfold k0_pay1
  rw [maximumf_apply, addf_apply, broadcast_apply, product_apply, broadcastTo_1b_ab_apply, shapeCast_self, shapeCast_self]
  show max _ (Ideal.ofBits .f32 0x00000000#32) = _
  rw [Ideal.ofBits_zero_f32]
  rfl

end Cert.KernelIdeal.Dense

end
-- ==== Proof.KernelBlocks.lean ====
/-
  What each grid point writes back. The grid has 10 points; point t reads rows 10000·t … 10000·t + 9999 of the
  aggregated features, all of W and the bias row, and writes the same rows of the result. Each stored entry is the
  dense entry max((0 + Σ_k a[n, k] · W[k, o]) + r[0, o], 0) of the array row n it lands on: every point's block is the
  restriction of ONE whole-array function, the dense layer of the arrays the region finds.
-/
import proofs.«157711_j43722767073853_2_alg».proof.Proof.Gen.KernelIdeal.Value
import proofs.«157711_j43722767073853_2_alg».proof.Proof.KernelDense
import Idealize.ShloMosaic.Lib.Pipeline.Value

noncomputable section

open scoped BigOperators

namespace Cert.KernelIdeal.Array

open Cert.KernelIdeal Cert.KernelIdeal.Gen Cert.KernelIdeal.Value Cert.KernelIdeal.Dense
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The dense entry (n, o): the row n of A times column o of W accumulated from 0, plus the bias row's entry, clipped
    below at 0. -/
def denseAt (A : S100000x25.Idx → EReal) (W : S25x50.Idx → EReal) (R : S1x50.Idx → EReal) (n : Fin 100000) (o : Fin 50) : EReal :=
  max (((0 : EReal) + ∑ k : Fin 25, A (ix2 n k) * W (ix2 k o)) + R (ix2 (0 : Fin 1) o)) 0

/-- The dense layer of whole arrays. -/
def dense (A : S100000x25.Idx → EReal) (W : S25x50.Idx → EReal) (R : S1x50.Idx → EReal) : S100000x50.Idx → EReal :=
  fun i => denseAt A W R (i 0) (i 1)

/-- The dense layer at (n, o) is the dense entry (n, o). -/
theorem dense_apply (A : S100000x25.Idx → EReal) (W : S25x50.Idx → EReal) (R : S1x50.Idx → EReal) (n : Fin 100000) (o : Fin 50) :
    dense A W R (ix2 n o) = denseAt A W R n o := rfl

/-- The body's stored value at (p, q) is the dense entry of the array row n, when the loaded blocks are the arrays'
    rows n (of A), everything (of W) and the one row (of R). -/
theorem pay_eq_dense (a : Vec Ideal S10000x25 .f32) (w : Vec Ideal S25x50 .f32) (r : Vec Ideal S1x50 .f32)
    (A : S100000x25.Idx → EReal) (W : S25x50.Idx → EReal) (R : S1x50.Idx → EReal) (p : Fin 10000) (q : Fin 50) (n : Fin 100000)
    (ha : ∀ k : Fin 25, a (ix2 p k) = A (ix2 n k)) (hw : ∀ k : Fin 25, w (ix2 k q) = W (ix2 k q))
    (hr : r (ix2 (0 : Fin 1) q) = R (ix2 (0 : Fin 1) q)) :
    k0_pay1 (F := Ideal) a w r (ix2 p q) = denseAt A W R n q := by
  rw [pay_apply]
  unfold denseAt
  rw [hr]
  refine congrArg (fun z => max (((0 : EReal) + z) + R (ix2 (0 : Fin 1) q)) 0) (Finset.sum_congr rfl fun k _ => ?_)
  rw [ha k, hw k]

/-- The same at a block entry j landing on the array entry i: i's column is j's, and the loaded blocks are the arrays
    read at i's row (of A), everywhere (of W) and at the one row (of R). -/
theorem pay_block (a : Vec Ideal S10000x25 .f32) (w : Vec Ideal S25x50 .f32) (r : Vec Ideal S1x50 .f32)
    (A : S100000x25.Idx → EReal) (W : S25x50.Idx → EReal) (R : S1x50.Idx → EReal) (j : S10000x50.Idx) (i : S100000x50.Idx)
    (hcol : (i 1).val = (j 1).val)
    (ha : ∀ (k : Fin 25) (y : S10000x25.Idx) (z : S100000x25.Idx), (y 0).val = (j 0).val → (y 1).val = k.val →
      (z 0).val = (i 0).val → (z 1).val = k.val → a y = A z)
    (hw : ∀ y : S25x50.Idx, w y = W y) (hr : ∀ y : S1x50.Idx, r y = R y) :
    k0_pay1 (F := Ideal) a w r j = dense A W R i := by
  obtain ⟨p, q, rfl⟩ : ∃ (p : Fin 10000) (q : Fin 50), j = ix2 p q := ⟨j 0, j 1, eq_ix2 j⟩
  obtain ⟨n, o, rfl⟩ : ∃ (n : Fin 100000) (o : Fin 50), i = ix2 n o := ⟨i 0, i 1, eq_ix2 i⟩
  obtain rfl : o = q := Fin.ext hcol
  exact pay_eq_dense a w r A W R p o n (fun k => ha k (ix2 p k) (ix2 n k) rfl rfl rfl rfl) (fun k => hw _) (hr _)

/-- The printed index maps, decided over the grid: the features' and the result's blocks are the t-th row blocks, W's
    and the bias row's the whole arrays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point t, read at y, is the aggregated-features array at rows 10000·t + (y's row). -/
theorem read_features (c : Dev nD) (t : Fin cfg0.N) (y : S10000x25.Idx) (z : S100000x25.Idx)
    (h0 : (z 0).val = t.val * 10000 + (y 0).val) (h1 : (z 1).val = (y 1).val) :
    iblk m c 0 t y = V m c main_v13 z := by
  obtain ⟨e0, e1, -⟩ := idx_facts t
  unfold iblk
  rw [View.read_apply, cast_eq]
  refine congrArg (V m c main_v13) (funext fun ax => Fin.ext ?_)
  match ax with
  | ⟨0, _⟩ => show win0_0.index t (0 : Fin 2) * 10000 + 1 * (y 0).val = (z 0).val; omega
  | ⟨1, _⟩ => show win0_0.index t (1 : Fin 2) * 25 + 1 * (y 1).val = (z 1).val; omega

/-- The weights' block at every point is the whole of W. -/
theorem read_weights (c : Dev nD) (t : Fin cfg0.N) (y : S25x50.Idx) : iblk m c 1 t y = V m c main_arg1 y := by
  obtain ⟨-, -, e2, e3, -⟩ := idx_facts t
  unfold iblk
  rw [View.read_apply, cast_eq]
  refine congrArg (V m c main_arg1) (funext fun ax => Fin.ext ?_)
  match ax with
  | ⟨0, _⟩ => show win0_1.index t (0 : Fin 2) * 25 + 1 * (y 0).val = (y 0).val; omega
  | ⟨1, _⟩ => show win0_1.index t (1 : Fin 2) * 50 + 1 * (y 1).val = (y 1).val; omega

/-- The bias row's block at every point is the whole row. -/
theorem read_bias (c : Dev nD) (t : Fin cfg0.N) (y : S1x50.Idx) : iblk m c 2 t y = V m c main_v14 y := by
  obtain ⟨-, -, -, -, e4, e5, -⟩ := idx_facts t
  unfold iblk
  rw [View.read_apply, cast_eq]
  refine congrArg (V m c main_v14) (funext fun ax => Fin.ext ?_)
  match ax with
  | ⟨0, _⟩ => show win0_2.index t (0 : Fin 2) * 1 + 1 * (y 0).val = (y 0).val; omega
  | ⟨1, _⟩ => show win0_2.index t (1 : Fin 2) * 50 + 1 * (y 1).val = (y 1).val; omega

/-- WHAT POINT t WRITES BACK is block t of the dense layer of the arrays the region finds. -/
theorem flushed_eq (c : Dev nD) (t : Fin cfg0.N) :
    (dats m 0 c).flushed 3 t
      = ((cfg0.win 3).blk t).view.read (Elt Ideal) (dense (V m c main_v13) (V m c main_arg1) (V m c main_v14)) := by
  rw [flushed3]
  unfold out0_3
  rw [View.canon_unit_zero hz]
  simp only [View.ld_unit_zero (S := S10000x25) hz, View.ld_unit_zero (S := S25x50) hz, View.ld_unit_zero (S := S1x50) hz]
  obtain ⟨-, -, -, -, -, -, e6, e7⟩ := idx_facts t
  generalize hX : k0_pay1 (F := Ideal) (iblk m c 0 t) (iblk m c 1 t) (iblk m c 2 t) = X
  funext j
  rw [View.read_apply, cast_eq]
  have hcol : ((((cfg0.win 3).blk t).view.emb j) 1).val = (j 1).val := by
    show win0_3.index t (1 : Fin 2) * 50 + 1 * (j 1).val = (j 1).val
    omega
  have hrow : ((((cfg0.win 3).blk t).view.emb j) 0).val = t.val * 10000 + (j 0).val := by
    show win0_3.index t (0 : Fin 2) * 10000 + 1 * (j 0).val = t.val * 10000 + (j 0).val
    omega
  have key := pay_block (iblk m c 0 t) (iblk m c 1 t) (iblk m c 2 t) (V m c main_v13) (V m c main_arg1) (V m c main_v14)
    j (((cfg0.win 3).blk t).view.emb j) hcol
    (fun k y z hy0 hy1 hz0 hz1 => read_features m c t y z (by omega) (by omega))
    (fun y => read_weights m c t y) (fun y => read_bias m c t y)
  rw [hX] at key
  exact key

end Cert.KernelIdeal.Array

end
-- ==== Proof.KernelCover.lean ====
/-
  The ten row blocks tile the result array: row n lies in the block of point n / 10000. So after the run the result
  array is the dense layer of the arrays the region finds, everywhere.
-/
import proofs.«157711_j43722767073853_2_alg».proof.Proof.KernelBlocks

noncomputable section

open scoped BigOperators

namespace Cert.KernelIdeal.Array

open Cert.KernelIdeal Cert.KernelIdeal.Gen Cert.KernelIdeal.Value
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- An index of the result array is in point t's block iff each coordinate is in the block's range on its axis. -/
theorem mem_blk (t : Fin cfg0.N) (i : S100000x50.Idx) :
    i ∈ ((cfg0.win 3).blk t).view.set ↔ ∀ a : Fin 2, win0_3.index t a * S10000x50.size a ≤ (i a).val
      ∧ (i a).val < win0_3.index t a * S10000x50.size a + S10000x50.size a := by
  show i ∈ ((View.whole main_v15).slice (win0_3.rect t)).set ↔ _
  rw [View.set_slice_whole, Rect.mem_set_unit]
  exact Iff.rfl

/-- The ten row blocks cover the result array: row n is in the block of point n / 10000. -/
theorem cover (i : S100000x50.Idx) : ∃ t : Fin cfg0.N, (cfg0.win 3).flush t = true ∧ i ∈ ((cfg0.win 3).blk t).view.set := by
  have hi0 : (i 0).val < 100000 := (i 0).isLt
  have hi1 : (i 1).val < 50 := (i 1).isLt
  have hN : cfg0.N = 10 := N_0
  let t : Fin cfg0.N := ⟨(i 0).val / 10000, by rw [hN]; omega⟩
  obtain ⟨e0, e1, e2, e3, e4, e5, e6, e7⟩ := idx_facts t
  have ht : t.val = (i 0).val / 10000 := rfl
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    rw [e6, ht]; omega
  | ⟨1, _⟩ =>
    show win0_3.index t (1 : Fin 2) * 50 ≤ (i 1).val ∧ (i 1).val < win0_3.index t (1 : Fin 2) * 50 + 50
    rw [e7]; omega

/-- THE RESULT ARRAY after the run: the dense layer of the arrays the region finds. -/
theorem final (c : Dev nD) :
    (dats m 0 c).arrAt 3 cfg0.N = dense (V m c main_v13) (V m c main_arg1) (V m c main_v14) :=
  (dats m 0 c).arrAt_eq_of_cover 3 (dense (V m c main_v13) (V m c main_arg1) (V m c main_v14))
    (fun t _ => flushed_eq m c t) cover

end Cert.KernelIdeal.Array

end
-- ==== Proof.EdgeWords.lean ====
/-
  The two index columns both programs compute from the edge list, an integer array [2, 1600000] whose row 0 holds the
  edges' source words and row 1 their target words. The source column: row 0 with every negative word moved up by the
  node count 100000 (a negative index counts from the end), as a column [1600000, 1]. The target column: row 1 as it
  is, as a column. Both programs spell these by the same operations; here they are named once.
-/
import Idealize.ShloMosaic.PureOps

noncomputable section

namespace Cert.EdgeWords

open Idealize.ShloMosaic

theorem slice_row0 : (⟨2, ![2, 1600000]⟩ : Shape).Slices ![0, 0] ⟨2, ![1, 1600000]⟩ := by decide
theorem slice_row1 : (⟨2, ![2, 1600000]⟩ : Shape).Slices ![1, 0] ⟨2, ![1, 1600000]⟩ := by decide
theorem flat : (⟨2, ![1, 1600000]⟩ : Shape).ShapeCasts ⟨1, ![1600000]⟩ := by decide
theorem splat : (⟨0, ![]⟩ : Shape).BroadcastsInDim ⟨1, ![1600000]⟩ (![] : Fin 0 → Fin 1) := by decide
theorem column : (⟨1, ![1600000]⟩ : Shape).BroadcastsInDim ⟨2, ![1600000, 1]⟩ (![0] : Fin 1 → Fin 2) := by decide

/-- Row 0 of the edge list as a vector of 1600000 words. -/
def row0 (e : IVec ⟨2, ![2, 1600000]⟩ 32) : IVec ⟨1, ![1600000]⟩ 32 :=
  shapeCast _ (extractStridedSlice ⟨2, ![1, 1600000]⟩ ![0, 0] e slice_row0) flat

/-- The source column: each word of row 0, plus 100000 when it is negative. -/
def sourceWords (e : IVec ⟨2, ![2, 1600000]⟩ 32) : IVec ⟨2, ![1600000, 1]⟩ 32 :=
  broadcastInDim ⟨2, ![1600000, 1]⟩ ![0] column
    (select (cmpi .slt (row0 e) (broadcastInDim ⟨1, ![1600000]⟩ ![] splat (constantI ⟨0, ![]⟩ 32 0#32)))
      (addi (row0 e) (broadcastInDim ⟨1, ![1600000]⟩ ![] splat (constantI ⟨0, ![]⟩ 32 100000#32)))
      (row0 e))

/-- The target column: row 1 as it is. -/
def targetWords (e : IVec ⟨2, ![2, 1600000]⟩ 32) : IVec ⟨2, ![1600000, 1]⟩ 32 :=
  broadcastInDim ⟨2, ![1600000, 1]⟩ ![0] column
    (shapeCast _ (extractStridedSlice ⟨2, ![1, 1600000]⟩ ![1, 0] e slice_row1) flat)

end Cert.EdgeWords

end
-- ==== Proof.KernelEntry.lean ====
/-
  The arrays the kernel's region finds, by the host operations before it: the aggregated features — the source rows
  of x gathered edge by edge and added into their targets' rows from zero — and the bias as one row.
-/
import proofs.«157711_j43722767073853_2_alg».proof.Proof.Gen.KernelIdeal.Frame
import proofs.«157711_j43722767073853_2_alg».proof.Proof.EdgeWords
import Idealize.ShloMosaic.PureOps.Ideal
import Idealize.ShloMosaic.Lib.ValueIdx
import Idealize.ShloMosaic.Lib.Pipeline.Value
import Idealize.ShloMosaic.Lib.StableHlo.Run

noncomputable section

open scoped BigOperators

namespace Cert.KernelIdeal.Entry

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The arrays the region finds -/

/-- The bias row: the bias vector recast as one row. -/
theorem V_bias (c : Dev nD) :
    (V m c main_v14 : S1x50.Idx → EReal) = shapeCast _ (m ((c : Thread nD τ).loc main_arg2)) shapeCasts_S50_S1x50 := by
  dsimp only [Gen.V, Gen.hostOps0]; after_results <;> rfl

/-- The aggregated features: the gathered source rows of x added into their targets' rows, from zero. -/
theorem V_aggregate (c : Dev nD) : (V m c main_v13 : S100000x25.Idx → EReal)
    = Host.scatterAdd scatter_S100000x25_S1600000x1_S1600000x25_1_0_0_1
        (broadcastInDim S100000x25 ![] bcast_S_S100000x25 (constant (F := Ideal) S_ .f32 0x00000000#32))
        (Cert.EdgeWords.targetWords (m ((c : Thread nD τ).loc main_arg3)))
        (Host.gather gather_S100000x25_S1600000x1_S1600000x25_1_0_n_n_0_1_125 (m ((c : Thread nD τ).loc main_arg0))
          (Cert.EdgeWords.sourceWords (m ((c : Thread nD τ).loc main_arg3)))) := by
  dsimp only [Gen.V, Gen.hostOps0]; after_results <;> rfl

end Cert.KernelIdeal.Entry

end
-- ==== Proof.LibRowGatherScatter.lean ====
/-
  Whole rows moved by an index column. A host gather that, for each entry of an index column [E, 1], takes one whole
  row of a matrix [N, C] (the row number read signed off the index word and clamped into [0, N - 1]) reads, at entry
  (e, c), the matrix at (that row, c). A host scatter with an adding body that sends row e of an update [E, C] to the
  row of an operand [N, C] named by the index column reads, at the extended reals, at entry (n, c): the operand's entry
  plus the sum of the update's entries (e, c) over the e whose index word, read signed, is exactly n; a row aimed
  below 0 or at N or beyond is dropped. General in N, E, C and in the dimension record carrying those numbers.
-/
import Idealize.ShloMosaic.PureOps.ShapeOps
import Idealize.ShloMosaic.PureOps.Dims
import Idealize.ShloMosaic.PureOps.Ideal
import Idealize.ShloMosaic.Lib.ValueIdx

noncomputable section

open scoped BigOperators

namespace LibRowGatherScatter

open Idealize.ShloMosaic Idealize.ShloMosaic.ValueIdx

/-- The row a gather's start word selects among N rows: the word read signed, clamped into [0, N - 1]. -/
def clampRow (N : ℕ) (hN : 0 < N) (w : BitVec 32) : Fin N := ⟨min w.toInt.toNat (N - 1), by omega⟩

/-! ## The gather of whole rows -/

/-- Entry (e, c) of the gathered rows is the matrix at (the clamped row of index word e, c). -/
theorem gather_rows_apply {α : Type} {N E C : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ 32) (e : Fin E) (c : Fin C) :
    Host.gather d x idx (ix2 e c) = x (ix2 (clampRow N hN (idx (ix2 e (0 : Fin 1)))) c) := by
  obtain ⟨od, cd, ob, sb, sm, iv, ss, wf⟩ := d
  dsimp only at h1 h2 h3 h4 h5 h6 h7
  subst h1 h2 h3 h4 h5 h6 h7
  unfold Host.gather
  refine congrArg x ?_
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![E, 1]⟩ ⟨2, ![E, C]⟩)
        (ix2 e c) ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    unfold GatherDims.offCoord
    rw [dif_pos ((GatherDims.mem_sKept _ _).2 ⟨(show ¬ (1 : Fin 2) ∈ ([0] : List (Fin 2)) by decide), List.not_mem_nil⟩)]
    rfl

/-! ## A scalar constant broadcast to a whole array -/

/-- A scalar float constant broadcast to any shape reads, at every index, the constant's value. -/
theorem splat_apply {F : FTy → Type} [FloatOps F] {t : Shape} {φ : FTy}
    (h : (⟨0, ![]⟩ : Shape).BroadcastsInDim t (![] : Fin 0 → Fin t.rank)) (b : BitVec φ.bits) (i : t.Idx) :
    broadcastInDim t ![] h (constant (F := F) ⟨0, ![]⟩ φ b) i = FloatOps.ofBits φ b := rfl

/-- At the extended reals the host's adding scatter is the exact sum. -/
theorem scatterAdd_ideal {s si u : Shape} {φ : FTy} {w : ℕ} (d : ScatterDims s si u) (x : FVec Ideal s φ) (idx : IVec si w)
    (upd : FVec Ideal u φ) : Host.scatterAdd d x idx upd = Ideal.hostScatterAdd d x idx upd := rfl

/-! ## The scatter-add of whole rows -/

section Scatter

variable {N E C : ℕ} (d : ScatterDims ⟨2, ![N, C]⟩ ⟨2, ![E, 1]⟩ ⟨2, ![E, C]⟩)
  (h1 : d.updateWindowDims = [1]) (h2 : d.insertedWindowDims = [0]) (h3 : d.scatterDimsToOperandDims = [0])
  (h4 : d.indexVectorDim = 1)

/-- Membership in the operand's kept axes, with the row axis inserted: only the column axis is kept. -/
private theorem mem_kept_iff (a : Fin 2) :
    a ∈ (⟨2, ![N, C]⟩ : Shape).kept ([0] : List (Fin 2)) ↔ a = 1 := by
  show a ∈ (List.finRange 2).filter (fun b : Fin 2 => b ∉ ([0] : List (Fin 2))) ↔ a = 1
  revert a; decide

include h1 h2 h3 h4

/-- On the row axis the window of update entry (e, c) starts at index word e, read signed. -/
theorem start_row (idx : IVec ⟨2, ![E, 1]⟩ 32) (e : Fin E) (c : Fin C) :
    d.start (ix2 e c) idx 0 = (idx (ix2 e (0 : Fin 1))).toInt := by
  obtain ⟨uwd, iwd, sdto, ivd, wf⟩ := d
  dsimp only at h1 h2 h3 h4
  subst h1 h2 h3 h4
  unfold ScatterDims.start
  rw [dif_pos (List.mem_singleton.mpr rfl)]
  refine congrArg (fun z => (idx z).toInt) ?_
  funext b; refine Fin.ext ?_
  match b with
  | ⟨0, _⟩ => rfl
  | ⟨1, _⟩ => rfl

/-- On the column axis, which the index vector does not name, the window starts at 0. -/
theorem start_col (idx : IVec ⟨2, ![E, 1]⟩ 32) (e : Fin E) (c : Fin C) :
    d.start (ix2 e c) idx 1 = 0 := by
  obtain ⟨uwd, iwd, sdto, ivd, wf⟩ := d
  dsimp only at h1 h2 h3 h4
  subst h1 h2 h3 h4
  unfold ScatterDims.start
  rw [dif_neg (show ¬ (1 : Fin 2) ∈ ([0] : List (Fin 2)) by decide)]

/-- The row axis is inserted: the window has no extent there. -/
theorem window_row (e : Fin E) (c : Fin C) : d.window (ix2 e c) 0 = 0 := by
  obtain ⟨uwd, iwd, sdto, ivd, wf⟩ := d
  dsimp only at h1 h2 h3 h4
  subst h1 h2 h3 h4
  unfold ScatterDims.window
  rw [dif_neg (fun h => absurd ((mem_kept_iff (N := N) (C := C) 0).1 h) (by decide))]

/-- On the column axis the window coordinate is the update's column. -/
theorem window_col (e : Fin E) (c : Fin C) : d.window (ix2 e c) 1 = c.val := by
  obtain ⟨uwd, iwd, sdto, ivd, wf⟩ := d
  dsimp only at h1 h2 h3 h4
  subst h1 h2 h3 h4
  unfold ScatterDims.window
  rw [dif_pos ((mem_kept_iff (N := N) (C := C) 1).2 rfl)]
  rfl

/-- Update entry (e, c) lands on operand entry (n, k) exactly when index word e, read signed, is n and c is k. -/
theorem resultIdx?_rows (idx : IVec ⟨2, ![E, 1]⟩ 32) (e : Fin E) (c : Fin C) (n : Fin N) (k : Fin C) :
    d.resultIdx? (ix2 e c) idx = some (ix2 n k) ↔ (idx (ix2 e (0 : Fin 1))).toInt = (n.val : ℤ) ∧ c = k := by
  have hs0 := start_row d h1 h2 h3 h4 idx e c
  have hs1 := start_col d h1 h2 h3 h4 idx e c
  have hw0 := window_row d h1 h2 h3 h4 e c
  have hw1 := window_col d h1 h2 h3 h4 e c
  unfold ScatterDims.resultIdx?
  constructor
  · intro hres
    split_ifs at hres with hc
    have e0 : (d.start (ix2 e c) idx 0 + ((d.window (ix2 e c) 0 : ℕ) : ℤ)).toNat = n.val :=
      congrArg Fin.val (congrFun (Option.some.inj hres) 0)
    have e1 : (d.start (ix2 e c) idx 1 + ((d.window (ix2 e c) 1 : ℕ) : ℤ)).toNat = k.val :=
      congrArg Fin.val (congrFun (Option.some.inj hres) 1)
    have hc0 := (hc 0).1
    rw [hs0, hw0] at e0 hc0
    rw [hs1, hw1] at e1
    exact ⟨by omega, Fin.ext (by omega)⟩
  · rintro ⟨heq, rfl⟩
    have hc : ∀ a : Fin (⟨2, ![N, C]⟩ : Shape).rank,
        0 ≤ d.start (ix2 e c) idx a + ((d.window (ix2 e c) a : ℕ) : ℤ) ∧
          d.start (ix2 e c) idx a + ((d.window (ix2 e c) a : ℕ) : ℤ) < (((⟨2, ![N, C]⟩ : Shape).size a : ℕ) : ℤ) := by
      refine Fin.forall_fin_two.2 ⟨?_, ?_⟩
      · show 0 ≤ d.start (ix2 e c) idx 0 + ((d.window (ix2 e c) 0 : ℕ) : ℤ) ∧
          d.start (ix2 e c) idx 0 + ((d.window (ix2 e c) 0 : ℕ) : ℤ) < ((N : ℕ) : ℤ)
        rw [hs0, hw0, heq]
        have := n.isLt
        constructor <;> omega
      · show 0 ≤ d.start (ix2 e c) idx 1 + ((d.window (ix2 e c) 1 : ℕ) : ℤ) ∧
          d.start (ix2 e c) idx 1 + ((d.window (ix2 e c) 1 : ℕ) : ℤ) < ((C : ℕ) : ℤ)
        rw [hs1, hw1]
        have := c.isLt
        constructor <;> omega
    rw [dif_pos hc]
    refine congrArg some (funext fun a => Fin.ext ?_)
    revert a
    refine Fin.forall_fin_two.2 ⟨?_, ?_⟩
    · show (d.start (ix2 e c) idx 0 + ((d.window (ix2 e c) 0 : ℕ) : ℤ)).toNat = n.val
      rw [hs0, hw0, heq]; omega
    · show (d.start (ix2 e c) idx 1 + ((d.window (ix2 e c) 1 : ℕ) : ℤ)).toNat = c.val
      rw [hs1, hw1]; omega

/-- THE SCATTERED SUM READ AT (n, k), at the extended reals: the operand's entry plus the sum over the update rows e
    aimed at n of the update's entry (e, k). -/
theorem hostScatterAdd_rows_apply (x : (⟨2, ![N, C]⟩ : Shape).Idx → EReal) (idx : IVec ⟨2, ![E, 1]⟩ 32)
    (upd : (⟨2, ![E, C]⟩ : Shape).Idx → EReal) (n : Fin N) (k : Fin C) :
    Ideal.hostScatterAdd d x idx upd (ix2 n k)
      = x (ix2 n k) + ∑ e ∈ Finset.univ.filter (fun e : Fin E => (idx (ix2 e (0 : Fin 1))).toInt = (n.val : ℤ)),
          upd (ix2 e k) := by
  unfold Ideal.hostScatterAdd
  refine congrArg (x (ix2 n k) + ·) ?_
  rw [Finset.sum_filter, sum_idx2, Finset.sum_filter]
  refine Finset.sum_congr rfl fun e _ => ?_
  simp only [resultIdx?_rows d h1 h2 h3 h4 idx e _ n k]
  by_cases hh : (idx (ix2 e (0 : Fin 1))).toInt = (n.val : ℤ)
  · simp only [hh, true_and, if_true, Finset.sum_ite_eq', Finset.mem_univ]
  · simp only [hh, false_and, if_false, Finset.sum_const_zero]

end Scatter

end LibRowGatherScatter

end
-- ==== Proof.LibSumExchange.lean ====
/-
  Finite sums of real numbers inside the extended reals. The coercion of a finite sum of reals is the sum of the
  coercions; and, for real entries a(e, k) and real weights w(k), weighting the column sums is summing the weighted
  rows: the sum over k of (0 + the sum over e in S of a(e, k)) times w(k) equals the sum over e in S of the sum over
  k of a(e, k) times w(k). On the extended reals this needs the entries real: a product does not distribute over a
  sum that mixes the two infinities.
-/
import Mathlib.Data.EReal.Inv
import Mathlib.Algebra.BigOperators.Group.Finset.Basic
import Mathlib.Algebra.BigOperators.Ring.Finset

open scoped BigOperators

namespace LibSumExchange

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Weighting the column sums of real entries is summing the weighted rows. -/
theorem sum_weighted_cols {ι κ : Type*} [Fintype κ] (S : Finset ι) (a : ι → κ → ℝ) (w : κ → ℝ) :
    (∑ k : κ, ((0 : EReal) + ∑ e ∈ S, (a e k : EReal)) * (w k : EReal))
      = ∑ e ∈ S, ∑ k : κ, (a e k : EReal) * (w k : EReal) := by
  simp only [zero_add, ← coe_sum, ← EReal.coe_mul]
  refine congrArg _ ?_
  rw [Finset.sum_comm]
  refine Finset.sum_congr rfl fun k _ => ?_
  rw [Finset.sum_mul]

end LibSumExchange
-- ==== Proof.Aggregate.lean ====
/-
  The graph-convolution layer as one function of its inputs, and the law that joins its two arrangements.

  Nodes 0 … 99999 carry 25 features each (x), edges 0 … 1599999 each have a source word and a target word, W is a
  25 × 50 matrix, b a bias of 50 entries. Edge e reads the row of its SOURCE (the source word read signed and clamped
  into the node range) and is added into the row of its TARGET when the target word, read signed, is a node number
  (an edge aimed outside the node range is dropped). The layer's entry (n, o) is

      max( (0 + Σ over the edges e aimed at n of Σ_k x[source e, k] · W[k, o]) + b[o], 0 ).

  One program transforms first (x · W, 50 wide) and then aggregates over the edges; the other aggregates the 25
  features first and transforms the aggregate: (0 + Σ_k (0 + Σ_e x[source e, k]) · W[k, o]) + b[o]. For REAL x and W
  the two agree: a finite sum of reals times a real distributes, and the two finite sums exchange. (On the extended
  reals a product does not distribute over a sum that mixes +infinity and -infinity, so the entries' finiteness is used.)
-/
import proofs.«157711_j43722767073853_2_alg».proof.Proof.LibRowGatherScatter
import proofs.«157711_j43722767073853_2_alg».proof.Proof.LibSumExchange

noncomputable section

open scoped BigOperators

namespace Cert.Aggregate

open Idealize.ShloMosaic Idealize.ShloMosaic.ValueIdx LibRowGatherScatter

/-- The edges aimed at node n: those whose target word, read signed, is n. -/
def into (dst : IVec ⟨2, ![1600000, 1]⟩ 32) (n : Fin 100000) : Finset (Fin 1600000) :=
  Finset.univ.filter fun e => (dst (ix2 e (0 : Fin 1))).toInt = (n.val : ℤ)

/-- The node edge e reads: its source word read signed, clamped into the node range. -/
def source (src : IVec ⟨2, ![1600000, 1]⟩ 32) (e : Fin 1600000) : Fin 100000 :=
  clampRow 100000 (by decide) (src (ix2 e (0 : Fin 1)))

/-- The layer's entry (n, o): transform each edge's source row by W, add up over the edges aimed at n, add the bias,
    clip below at 0. -/
def layerAt (src dst : IVec ⟨2, ![1600000, 1]⟩ 32) (x : (⟨2, ![100000, 25]⟩ : Shape).Idx → EReal)
    (W : (⟨2, ![25, 50]⟩ : Shape).Idx → EReal) (b : (⟨1, ![50]⟩ : Shape).Idx → EReal) (n : Fin 100000) (o : Fin 50) : EReal :=
  max (((0 : EReal) + ∑ e ∈ into dst n, ∑ k : Fin 25, x (ix2 (source src e) k) * W (ix2 k o)) + b (ix1 o)) 0

/-- The layer as a whole array [100000, 50]. -/
def layer (src dst : IVec ⟨2, ![1600000, 1]⟩ 32) (x : (⟨2, ![100000, 25]⟩ : Shape).Idx → EReal)
    (W : (⟨2, ![25, 50]⟩ : Shape).Idx → EReal) (b : (⟨1, ![50]⟩ : Shape).Idx → EReal) :
    (⟨2, ![100000, 50]⟩ : Shape).Idx → EReal :=
  fun i => layerAt src dst x W b (i 0) (i 1)

/-- The whole array at (n, o) is the entry (n, o). -/
theorem layer_apply (src dst : IVec ⟨2, ![1600000, 1]⟩ 32) (x : (⟨2, ![100000, 25]⟩ : Shape).Idx → EReal)
    (W : (⟨2, ![25, 50]⟩ : Shape).Idx → EReal) (b : (⟨1, ![50]⟩ : Shape).Idx → EReal) (n : Fin 100000) (o : Fin 50) :
    layer src dst x W b (ix2 n o) = layerAt src dst x W b n o := rfl

/-- AGGREGATE FIRST, THEN TRANSFORM: for real features and weights, transforming the aggregated features (each
    aggregate 0 + Σ_e x[source e, k], the product with W accumulated from 0) gives the layer's entry. -/
theorem transform_of_aggregate (src dst : IVec ⟨2, ![1600000, 1]⟩ 32) (x : (⟨2, ![100000, 25]⟩ : Shape).Idx → ℝ)
    (W : (⟨2, ![25, 50]⟩ : Shape).Idx → ℝ) (b : (⟨1, ![50]⟩ : Shape).Idx → EReal) (n : Fin 100000) (o : Fin 50) :
    max (((0 : EReal) + ∑ k : Fin 25, ((0 : EReal) + ∑ e ∈ into dst n, ((x (ix2 (source src e) k) : ℝ) : EReal))
        * ((W (ix2 k o) : ℝ) : EReal)) + b (ix1 o)) 0
      = layerAt src dst (fun i => (x i : EReal)) (fun i => (W i : EReal)) b n o := by
  unfold layerAt
  rw [LibSumExchange.sum_weighted_cols (into dst n) (fun e k => x (ix2 (source src e) k)) (fun k => W (ix2 k o))]

end Cert.Aggregate

end
-- ==== Proof.KernelValue.lean ====
/-
  The kernel's result is the layer. The region finds the aggregated features A[n, k] = 0 + Σ over the edges e aimed at
  n of x[source e, k] (the gathered source rows added into their targets' rows from zero), W and the bias as a row, and
  leaves the dense layer of them: max((0 + Σ_k A[n, k] · W[k, o]) + b[o], 0). With x and W real, transforming the
  aggregate is aggregating the transformed rows, so this is the layer's entry.
-/
import proofs.«157711_j43722767073853_2_alg».proof.Proof.KernelCover
import proofs.«157711_j43722767073853_2_alg».proof.Proof.KernelEntry
import proofs.«157711_j43722767073853_2_alg».proof.Proof.Aggregate
import Idealize.ShloMosaic.Lib.ValueLayout

noncomputable section

open scoped BigOperators

namespace Cert.KernelIdeal.KValue

open Cert.KernelIdeal Cert.KernelIdeal.Gen Cert.KernelIdeal.Value Cert.KernelIdeal.Array Cert.KernelIdeal.Entry
open Idealize.ShloMosaic Idealize.ShloMosaic.TcCoe Idealize.SL.Sem Idealize.ShloMosaic.ValueIdx
open LibRowGatherScatter Cert.Aggregate

/-- The aggregated features at (n, k): 0 plus the sum, over the edges aimed at n, of x at (the edge's source, k). -/
theorem aggregate_apply (x : S100000x25.Idx → EReal) (src dst : IVec S1600000x1 32) (n : Fin 100000) (k : Fin 25) :
    Host.scatterAdd scatter_S100000x25_S1600000x1_S1600000x25_1_0_0_1
        (broadcastInDim S100000x25 ![] bcast_S_S100000x25 (constant (F := Ideal) S_ .f32 0x00000000#32)) dst
        (Host.gather gather_S100000x25_S1600000x1_S1600000x25_1_0_n_n_0_1_125 x src) (ix2 n k)
      = (0 : EReal) + ∑ e ∈ into dst n, x (ix2 (source src e) k) := by
  unfold into
  rw [scatterAdd_ideal, hostScatterAdd_rows_apply _ rfl rfl rfl rfl, splat_apply, Ideal.ofBits_def, Ideal.ofBits_zero_f32]
  refine congrArg ((0 : EReal) + ·) (Finset.sum_congr rfl fun e _ => ?_)
  exact gather_rows_apply (by decide) _ rfl rfl rfl rfl rfl rfl rfl x src e k

/-- THE DENSE LAYER OF THE AGGREGATE IS THE LAYER, for real features and weights. -/
theorem dense_eq_layer (x : S100000x25.Idx → ℝ) (W : S25x50.Idx → ℝ) (b : S50.Idx → EReal) (src dst : IVec S1600000x1 32) :
    dense (Host.scatterAdd scatter_S100000x25_S1600000x1_S1600000x25_1_0_0_1
        (broadcastInDim S100000x25 ![] bcast_S_S100000x25 (constant (F := Ideal) S_ .f32 0x00000000#32)) dst
        (Host.gather gather_S100000x25_S1600000x1_S1600000x25_1_0_n_n_0_1_125 (fun i => (x i : EReal)) src))
      (fun i => (W i : EReal)) (shapeCast _ b shapeCasts_S50_S1x50)
      = layer src dst (fun i => (x i : EReal)) (fun i => (W i : EReal)) b := by
  funext i
  obtain ⟨n, o, rfl⟩ : ∃ (n : Fin 100000) (o : Fin 50), i = ix2 n o := ⟨i 0, i 1, eq_ix2 i⟩
  rw [dense_apply, layer_apply]
  unfold denseAt
  rw [shapeCast_a_1a_apply]
  refine Eq.trans ?_ (transform_of_aggregate src dst x W b n o)
  refine congrArg (fun z => max (((0 : EReal) + z) + b (ix1 o)) 0) (Finset.sum_congr rfl fun k _ => ?_)
  exact congrArg (· * ((W (ix2 k o) : ℝ) : EReal)) (aggregate_apply (fun i => (x i : EReal)) src dst n k)

variable (m : (ℓ : Loc nD τ sig) → Buf (Elt Ideal) ℓ) (ρ : Dev nD → PrngReg)

/-- The result array after the run is the layer of the arguments, when the features and the weights are real. -/
theorem result_eq (c : Dev nD)
    (hx : ∃ x : S100000x25.Idx → ℝ, m ((c : Thread nD τ).loc main_arg0) = fun i => (x i : EReal))
    (hw : ∃ W : S25x50.Idx → ℝ, m ((c : Thread nD τ).loc main_arg1) = fun i => (W i : EReal)) :
    (dats m 0 c).arrAt 3 cfg0.N
      = layer (Cert.EdgeWords.sourceWords (m ((c : Thread nD τ).loc main_arg3)))
          (Cert.EdgeWords.targetWords (m ((c : Thread nD τ).loc main_arg3)))
          (m ((c : Thread nD τ).loc main_arg0)) (m ((c : Thread nD τ).loc main_arg1)) (m ((c : Thread nD τ).loc main_arg2)) := by
  obtain ⟨x, hx⟩ := hx
  obtain ⟨W, hW⟩ := hw
  rw [final, V_aggregate, V_bias, V_main_arg1, hx, hW]
  exact dense_eq_layer x W _ _ _

/-- The kernel's run, read: the result array at the layer of the arguments, the arguments unchanged. -/
theorem run (hreal : ∀ c : Dev nD,
      (∃ x : S100000x25.Idx → ℝ, m ((c : Thread nD τ).loc main_arg0) = fun i => (x i : EReal))
      ∧ (∃ W : S25x50.Idx → ℝ, m ((c : Thread nD τ).loc main_arg1) = fun i => (W i : EReal))) :
    θ_run defs (onTc (τ := τ) (main (F := Ideal))) ⟨m, fun _ => 0, ρ⟩ fun r => ∀ c : Dev nD,
      r.2.mem ((c : Thread nD τ).loc main_v15)
        = layer (Cert.EdgeWords.sourceWords (m ((c : Thread nD τ).loc main_arg3)))
            (Cert.EdgeWords.targetWords (m ((c : Thread nD τ).loc main_arg3)))
            (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c (hreal c).1 (hreal c).2), (h c).2⟩)
    (Cert.KernelIdeal.Value.run_blocks m ρ)

end Cert.KernelIdeal.KValue

end
-- ==== Proof.RefValue.lean ====
/-
  The reference's result is the layer. Its program transforms every node's row by W (a [100000, 25] × [25, 50]
  product: entry (r, o) is Σ_k x[r, k] · W[k, o]), gathers the transformed row of each edge's source, adds the
  gathered rows into their targets' rows from zero, adds the bias along the rows and clips below at 0: entry (n, o) is
  max((0 + Σ over the edges e aimed at n of Σ_k x[source e, k] · W[k, o]) + b[o], 0) — the layer as stated.
-/
import proofs.«157711_j43722767073853_2_alg».proof.Proof.Gen.ReferenceIdeal.Read
import proofs.«157711_j43722767073853_2_alg».proof.Proof.Aggregate
import proofs.«157711_j43722767073853_2_alg».proof.Proof.EdgeWords

noncomputable section

open scoped BigOperators

namespace Cert.ReferenceIdeal.RefValue

open Cert.ReferenceIdeal Cert.ReferenceIdeal.Gen Cert.ReferenceIdeal.Read Idealize.ShloMosaic Idealize.ShloMosaic.ValueIdx
open LibRowGatherScatter Cert.Aggregate

/-- The reference's source column is the source column. -/
theorem src_eq (x3 : (⟨S2x1600000, .i32⟩ : BufTy).Contents (Elt Ideal)) :
    val_main_v10 (F := Ideal) x3 = Cert.EdgeWords.sourceWords x3 := rfl

/-- The reference's target column is the target column. -/
theorem dst_eq (x3 : (⟨S2x1600000, .i32⟩ : BufTy).Contents (Elt Ideal)) :
    val_main_v13 (F := Ideal) x3 = Cert.EdgeWords.targetWords x3 := rfl

/-- The gathered transformed rows: entry (e, o) is the product row of edge e's source at o. -/
theorem gathered_apply (x0 : (⟨S100000x25, .f32⟩ : BufTy).Contents (Elt Ideal)) (x1 : (⟨S25x50, .f32⟩ : BufTy).Contents (Elt Ideal))
    (x3 : (⟨S2x1600000, .i32⟩ : BufTy).Contents (Elt Ideal)) (e : Fin 1600000) (o : Fin 50) :
    val_main_v11 (F := Ideal) x0 x1 x3 (ix2 e o)
      = ∑ k : Fin 25, x0 (ix2 (source (Cert.EdgeWords.sourceWords x3) e) k) * x1 (ix2 k o) := by
  unfold val_main_v11
  rw [gather_rows_apply (by decide) _ rfl rfl rfl rfl rfl rfl rfl, val_main_v4_apply]
  refine Finset.sum_congr rfl fun k _ => ?_
  rw [src_eq]
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

/-- The aggregated transformed rows: entry (n, o). -/
theorem aggregated_apply (x0 : (⟨S100000x25, .f32⟩ : BufTy).Contents (Elt Ideal)) (x1 : (⟨S25x50, .f32⟩ : BufTy).Contents (Elt Ideal))
    (x3 : (⟨S2x1600000, .i32⟩ : BufTy).Contents (Elt Ideal)) (n : Fin 100000) (o : Fin 50) :
    val_main_v14 (F := Ideal) x0 x1 x3 (ix2 n o)
      = (0 : EReal) + ∑ e ∈ into (Cert.EdgeWords.targetWords x3) n,
          ∑ k : Fin 25, x0 (ix2 (source (Cert.EdgeWords.sourceWords x3) e) k) * x1 (ix2 k o) := by
  unfold val_main_v14 into
  rw [scatterAdd_ideal, hostScatterAdd_rows_apply _ rfl rfl rfl rfl, val_main_v12_apply, val_main_cst_apply, Ideal.ofBits_def,
    Ideal.ofBits_zero_f32, dst_eq]
  refine congrArg ((0 : EReal) + ·) (Finset.sum_congr rfl fun e _ => gathered_apply x0 x1 x3 e o)

/-- THE REFERENCE'S RESULT IS THE LAYER. -/
theorem result_eq (x0 : (⟨S100000x25, .f32⟩ : BufTy).Contents (Elt Ideal)) (x1 : (⟨S25x50, .f32⟩ : BufTy).Contents (Elt Ideal))
    (x2 : (⟨S50, .f32⟩ : BufTy).Contents (Elt Ideal)) (x3 : (⟨S2x1600000, .i32⟩ : BufTy).Contents (Elt Ideal)) :
    val_main_v18 (F := Ideal) x0 x1 x2 x3
      = layer (Cert.EdgeWords.sourceWords x3) (Cert.EdgeWords.targetWords x3) x0 x1 x2 := by
  funext i
  obtain ⟨n, o, rfl⟩ : ∃ (n : Fin 100000) (o : Fin 50), i = ix2 n o := ⟨i 0, i 1, eq_ix2 i⟩
  rw [val_main_v18_apply, val_main_v17_apply, aggregated_apply, val_main_call0_v0_apply, val_main_call0_cst_apply,
    val_main_v16_apply, val_main_v15_apply, Ideal.ofBits_def, Ideal.ofBits_zero_f32, Ideal.maximumf_def, Ideal.addf_def,
    layer_apply]
  have hidx : idx_main_v15 (idx_main_v16 (ix2 n o)) = ix1 o :=
    funext fun a => Fin.ext (by match a with | ⟨0, _⟩ => rfl)
  rw [hidx]
  rfl

end Cert.ReferenceIdeal.RefValue

end
-- ==== Proof.lean ====
/-
  A graph-convolution layer: 100000 nodes with 25 features each (x), 1600000 edges given by a source word and a target
  word each, a 25 × 50 weight matrix W and a bias b of 50 entries. Edge e carries the row of its source node into the
  row of its target node; entry (n, o) of the result is

      max( (0 + Σ over the edges e aimed at n of Σ_k x[source e, k] · W[k, o]) + b[o], 0 ).

  The reference transforms every node's row by W first and then adds the transformed rows along the edges. The kernel
  adds the 25-wide rows along the edges first (on the host) and transforms the aggregate by W, adds the bias and clips,
  in ten blocks of 10000 rows: (0 + Σ_k (0 + Σ_e x[source e, k]) · W[k, o]) + b[o]. The two are equal because a finite
  sum of REAL numbers times a real distributes and two finite sums exchange; on the extended reals that law fails when
  infinities of both signs meet, so the finiteness of x and W (the precondition) is used, and only there. The edge
  words take part identically on both sides: a source word is read signed, moved up by 100000 when negative and
  clamped into the node range; an edge whose target word is not a node number is dropped.

  Both programs' frames and the reference's run are generated modules; the kernel's frame run is read through its
  generated block-by-block value module.
-/
import proofs.«157711_j43722767073853_2_alg».proof.Defs
import proofs.«157711_j43722767073853_2_alg».proof.Proof.Gen.Kernel
import proofs.«157711_j43722767073853_2_alg».proof.Proof.Gen.Kernel.Skeleton
import proofs.«157711_j43722767073853_2_alg».proof.Proof.Gen.Kernel.Launch
import proofs.«157711_j43722767073853_2_alg».proof.Proof.Gen.Kernel.Points
import proofs.«157711_j43722767073853_2_alg».proof.Proof.Gen.Kernel.Frame
import proofs.«157711_j43722767073853_2_alg».proof.Proof.Gen.KernelIdeal
import proofs.«157711_j43722767073853_2_alg».proof.Proof.Gen.KernelIdeal.Skeleton
import proofs.«157711_j43722767073853_2_alg».proof.Proof.Gen.KernelIdeal.Launch
import proofs.«157711_j43722767073853_2_alg».proof.Proof.Gen.KernelIdeal.Points
import proofs.«157711_j43722767073853_2_alg».proof.Proof.Gen.KernelIdeal.Frame
import proofs.«157711_j43722767073853_2_alg».proof.Proof.Gen.ReferenceIdeal
import proofs.«157711_j43722767073853_2_alg».proof.Proof.Gen.Pre_finite_inputs
import proofs.«157711_j43722767073853_2_alg».proof.Proof.Gen.KernelIdeal.Value
import proofs.«157711_j43722767073853_2_alg».proof.Proof.Gen.ReferenceIdeal.Run
import proofs.«157711_j43722767073853_2_alg».proof.Proof.Gen.ReferenceIdeal.Read
import proofs.«157711_j43722767073853_2_alg».proof.Proof.Finite
import proofs.«157711_j43722767073853_2_alg».proof.Proof.KernelValue
import proofs.«157711_j43722767073853_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the layer of the arguments: the kernel by transforming the aggregate (real features and
    weights), the reference by aggregating the transformed rows. -/
theorem algebraic : Cert.algebraic_KernelIdeal_ReferenceIdeal := by
  intro m ρ m' ρ' hpre hagree
  have hreal : ∀ c : Dev Cert.KernelIdeal.nD,
      (∃ x : Cert.KernelIdeal.S100000x25.Idx → ℝ,
        m ((c : Thread Cert.KernelIdeal.nD Cert.KernelIdeal.τ).loc Cert.KernelIdeal.main_arg0) = fun i => (x i : EReal))
      ∧ (∃ W : Cert.KernelIdeal.S25x50.Idx → ℝ,
        m ((c : Thread Cert.KernelIdeal.nD Cert.KernelIdeal.τ).loc Cert.KernelIdeal.main_arg1) = fun i => (W i : EReal)) :=
    fun c => Cert.Finite.real_inputs _ _ _ _ (hpre c)
  refine ⟨_, Cert.KernelIdeal.KValue.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
